-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x10x2x50 : Shape := ⟨5, ![16, 1024, 10, 2, 50]⟩
abbrev S_ : Shape := ⟨0, ![]⟩

class Facts : Prop where
  bcast_S_S16x1024x10x2x50 : S_.BroadcastsInDim S16x1024x10x2x50 (![] : Fin 0 → Fin S16x1024x10x2x50.rank)
  reducesTo_S16x1024x10x2x50_S_d0_1_2_3_4 : S16x1024x10x2x50.ReducesTo [0, 1, 2, 3, 4] S_
  h_S_ : 0 < S_.numel

variable [Facts]

def fn {F : FTy → Type} [FloatOps F] (main_arg0 : FVec F S16x1024x10x2x50 .f32) (main_arg1 : FVec F S16x1024x10x2x50 .f32) (main_arg2 : FVec F S16x1024x10x2x50 .f32) : IVec S_ 1 :=
  let main_v0 : FVec F S16x1024x10x2x50 .f32 := Host.absf main_arg0
  let main_cst : FVec F S_ .f32 := constant S_ .f32 0x7F800000#32
  let main_v1 : FVec F S16x1024x10x2x50 .f32 := broadcastInDim S16x1024x10x2x50 ![] bcast_S_S16x1024x10x2x50 main_cst
  let main_v2 : IVec S16x1024x10x2x50 1 := cmpf .olt main_v0 main_v1
  let main_c : IVec S_ 1 := constantI S_ 1 1#1
  let main_v3 : IVec S_ 1 := (fun x v => Host.reduce IntOp.andi x v reducesTo_S16x1024x10x2x50_S_d0_1_2_3_4 h_S_) main_v2 main_c
  let main_v4 : FVec F S16x1024x10x2x50 .f32 := Host.absf main_arg1
  let main_cst_0 : FVec F S_ .f32 := constant S_ .f32 0x7F800000#32
  let main_v5 : FVec F S16x1024x10x2x50 .f32 := broadcastInDim S16x1024x10x2x50 ![] bcast_S_S16x1024x10x2x50 main_cst_0
  let main_v6 : IVec S16x1024x10x2x50 1 := cmpf .olt main_v4 main_v5
  let main_c_1 : IVec S_ 1 := constantI S_ 1 1#1
  let main_v7 : IVec S_ 1 := (fun x v => Host.reduce IntOp.andi x v reducesTo_S16x1024x10x2x50_S_d0_1_2_3_4 h_S_) main_v6 main_c_1
  let main_v8 : IVec S_ 1 := andi main_v3 main_v7
  let main_v9 : FVec F S16x1024x10x2x50 .f32 := Host.absf main_arg2
  let main_cst_2 : FVec F S_ .f32 := constant S_ .f32 0x7F800000#32
  let main_v10 : FVec F S16x1024x10x2x50 .f32 := broadcastInDim S16x1024x10x2x50 ![] bcast_S_S16x1024x10x2x50 main_cst_2
  let main_v11 : IVec S16x1024x10x2x50 1 := cmpf .olt main_v9 main_v10
  let main_c_3 : IVec S_ 1 := constantI S_ 1 1#1
  let main_v12 : IVec S_ 1 := (fun x v => Host.reduce IntOp.andi x v reducesTo_S16x1024x10x2x50_S_d0_1_2_3_4 h_S_) main_v11 main_c_3
  let main_v13 : IVec S_ 1 := andi main_v8 main_v12
  main_v13
-- ==== Kernel.lean ====
abbrev S16x1024x10x2x50 : Shape := ⟨5, ![16, 1024, 10, 2, 50]⟩
abbrev S16000x1024 : Shape := ⟨2, ![16000, 1024]⟩
abbrev S2x1x1024 : Shape := ⟨3, ![2, 1, 1024]⟩
abbrev S2000x1024 : Shape := ⟨2, ![2000, 1024]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S16x1024x10x2x50, .f32⟩
  | .hbm, ⟨1, _⟩ => ⟨S16x1024x10x2x50, .f32⟩
  | .hbm, ⟨2, _⟩ => ⟨S16x1024x10x2x50, .f32⟩
  | .hbm, ⟨3, _⟩ => ⟨S16000x1024, .f32⟩
  | .hbm, ⟨4, _⟩ => ⟨S16000x1024, .f32⟩
  | .hbm, ⟨5, _⟩ => ⟨S16000x1024, .f32⟩
  | .hbm, ⟨6, _⟩ => ⟨S2x1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2000x1024, .f32⟩
  | .local _ .vmem, ⟨1, _⟩ => ⟨S2000x1024, .f32⟩
  | .local _ .vmem, ⟨2, _⟩ => ⟨S2000x1024, .f32⟩
  | .local _ .vmem, ⟨3, _⟩ => ⟨S2000x1024, .f32⟩
  | .local _ .vmem, ⟨4, _⟩ => ⟨S2000x1024, .f32⟩
  | .local _ .vmem, ⟨5, _⟩ => ⟨S2000x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | _, _ => ⟨S16x1024x10x2x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16x1024x10x2x50_S16000x1024 : S16x1024x10x2x50.ShapeCasts S16000x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  reduces_S2000x1024_S1024 : S2000x1024.Reduces [0] S1024
  shapeCasts_S1024_S1x1024 : S1024.ShapeCasts S1x1024
  shapeCasts_S1x1024_S1x1x1024 : S1x1024.ShapeCasts S1x1x1024
  reducesTo_S2x1x1024_S_d0_1_2 : S2x1x1024.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S16000x1024.size a
  hwx0_0 : ∀ i : grid0.Coords, EltTy.bits .f32 = 32 ∨ (Rect.block (s := S16000x1024) S2000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S16000x1024.size a
  hwx0_1 : ∀ i : grid0.Coords, EltTy.bits .f32 = 32 ∨ (Rect.block (s := S16000x1024) S2000x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1024.size a ≤ S16000x1024.size a
  hwx0_2 : ∀ i : grid0.Coords, EltTy.bits .f32 = 32 ∨ (Rect.block (s := S16000x1024) S2000x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)

variable [Facts₀]

abbrev win0_0 : Pipeline.Window sig grid0 :=
  Pipeline.Window.ofSpec (Memref.whole main_v0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x1024x10x2x50 : Shape := ⟨5, ![16, 1024, 10, 2, 50]⟩
abbrev S_ : Shape := ⟨0, ![]⟩
abbrev S16x1024x10x50 : Shape := ⟨4, ![16, 1024, 10, 50]⟩

abbrev nBuf : Space → Nat
  | .hbm => 20
  | .vmem => 0
  | .smem => 0
  | _ => 0

abbrev bufTy : (tb : Table) → Fin (tcTables nBuf tb) → BufTy
  | .hbm, ⟨0, _⟩ => ⟨S16x1024x10x2x50, .f32⟩
  | .hbm, ⟨1, _⟩ => ⟨S16x1024x10x2x50, .f32⟩
  | .hbm, ⟨2, _⟩ => ⟨S16x1024x10x2x50, .f32⟩
  | .hbm, ⟨3, _⟩ => ⟨S16x1024x10x2x50, .f32⟩
  | .hbm, ⟨4, _⟩ => ⟨S16x1024x10x2x50, .f32⟩
  | .hbm, ⟨5, _⟩ => ⟨S16x1024x10x2x50, .f32⟩
  | .hbm, ⟨6, _⟩ => ⟨S16x1024x10x2x50, .f32⟩
  | .hbm, ⟨7, _⟩ => ⟨S16x1024x10x2x50, .f32⟩
  | .hbm, ⟨8, _⟩ => ⟨S_, .f32⟩
  | .hbm, ⟨9, _⟩ => ⟨S16x1024x10x50, .f32⟩
  | .hbm, ⟨10, _⟩ => ⟨S_, .f32⟩
  | .hbm, ⟨11, _⟩ => ⟨S16x1024x10x50, .f32⟩
  | .hbm, ⟨12, _⟩ => ⟨S16x1024x10x50, .f32⟩
  | .hbm, ⟨13, _⟩ => ⟨S_, .f32⟩
  | .hbm, ⟨14, _⟩ => ⟨S16x1024x10x50, .f32⟩
  | .hbm, ⟨15, _⟩ => ⟨S16x1024x10x50, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S16x1024x10x2x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  reducesTo_S16x1024x10x2x50_S16x1024x10x50_d3 : S16x1024x10x2x50.ReducesTo [3] S16x1024x10x50
  h_S_ : 0 < S_.numel
  bcast_S_S16x1024x10x50 : S_.BroadcastsInDim S16x1024x10x50 (![] : Fin 0 → Fin S16x1024x10x50.rank)
  reducesTo_S16x1024x10x50_S_d0_1_2_3 : S16x1024x10x50.ReducesTo [0, 1, 2, 3] S_

variable [Facts₀]

class Facts : Prop extends Facts₀ where

variable [Facts]
-- ==== Proof.BodyValue.lean ====
/-
  What one run of the kernel body leaves behind, read back as values (at any float instance).

  The body keeps a [1, 1, 1024] accumulator in scratch memory. At a core's first step it zeroes the accumulator; at every
  step it replaces the accumulator `a` by `step a` of the step's three input blocks — `a` plus the column sums of the
  block's per-entry terms —; at a core's last step it copies the accumulator to the output block. The three control
  cases (first step / middle step / last step) therefore leave, in the accumulator, `step 0`, `step a`, `step a`,
  and the last one leaves the same `step a` in the output block too.
-/
import proofs.«159247_j90117003804744_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.NllBody

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A MIDDLE step (neither a core's first nor its last): the accumulator, found at `xs0`, is left at the step's
    payload of the mean block `x0`, the variance block `x1`, the target block `x2` and `xs0` — the one store that
    covers it, whose loads read the whole buffers. -/
theorem acc_middle (c : Dev nD) (i : grid0.Coords) (arg2 : Memref sig .tc .vmem S2000x1024 .f32) (harg2 : arg2.IsWhole) (arg3 : Memref sig .tc .vmem S2000x1024 .f32) (harg3 : arg3.IsWhole) (arg4 : Memref sig .tc .vmem S2000x1024 .f32) (harg4 : arg4.IsWhole) (arg5 : Memref sig .tc .vmem S1x1x1024 .f32) (harg5 : arg5.IsWhole) (arg6 : Memref sig .tc .vmem S1x1x1024 .f32) (harg6 : arg6.IsWhole) (hc0 : ¬cond0_0 i) (hc1 : ¬cond0_1 i)
    (x0 x1 x2 : Vec F S2000x1024 .f32) (xs0 : Vec F S1x1x1024 .f32) :
    sout0_B_0 c i arg2 harg2 arg3 harg3 arg4 harg4 arg5 harg5 arg6 harg6 hc0 hc1 x0 x1 x2 xs0 = k0_pay2 x2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz3]
  simp only [View.readAt_eq_ld, harg2.read_unread, harg3.read_unread, harg4.read_unread, harg6.read_unread,
    View.ld_unit_zero (S := S2000x1024) hz2, View.ld_unit_zero (S := S1x1x1024) hz3]

/-- A core's FIRST step: the accumulator is first overwritten by the zero block, read back, and left at the payload of
    the three blocks and that zero block. -/
theorem acc_first (c : Dev nD) (i : grid0.Coords) (arg2 : Memref sig .tc .vmem S2000x1024 .f32) (harg2 : arg2.IsWhole) (arg3 : Memref sig .tc .vmem S2000x1024 .f32) (harg3 : arg3.IsWhole) (arg4 : Memref sig .tc .vmem S2000x1024 .f32) (harg4 : arg4.IsWhole) (arg5 : Memref sig .tc .vmem S1x1x1024 .f32) (harg5 : arg5.IsWhole) (arg6 : Memref sig .tc .vmem S1x1x1024 .f32) (harg6 : arg6.IsWhole) (hc0 : cond0_0 i) (hc1 : ¬cond0_1 i)
    (x0 x1 x2 : Vec F S2000x1024 .f32) :
    sout0_A_0 c i arg2 harg2 arg3 harg3 arg4 harg4 arg5 harg5 arg6 harg6 hc0 hc1 x0 x1 x2 = k0_pay2 x2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x1024) hz3, View.readCov_unit_zero (S := S1x1x1024) _ hz3]
  simp only [View.readAt_eq_ld, harg2.read_unread, harg3.read_unread, harg4.read_unread,
    View.ld_unit_zero (S := S2000x1024) hz2, View.ld_unit_zero (S := S1x1x1024) hz3]

/-- A core's LAST step leaves the accumulator as a middle step does … -/
theorem acc_last (c : Dev nD) (i : grid0.Coords) (arg2 : Memref sig .tc .vmem S2000x1024 .f32) (harg2 : arg2.IsWhole) (arg3 : Memref sig .tc .vmem S2000x1024 .f32) (harg3 : arg3.IsWhole) (arg4 : Memref sig .tc .vmem S2000x1024 .f32) (harg4 : arg4.IsWhole) (arg5 : Memref sig .tc .vmem S1x1x1024 .f32) (harg5 : arg5.IsWhole) (arg6 : Memref sig .tc .vmem S1x1x1024 .f32) (harg6 : arg6.IsWhole) (hc0 : ¬cond0_0 i) (hc1 : cond0_1 i)
    (x0 x1 x2 : Vec F S2000x1024 .f32) (xs0 : Vec F S1x1x1024 .f32) :
    sout0_C_0 c i arg2 harg2 arg3 harg3 arg4 harg4 arg5 harg5 arg6 harg6 hc0 hc1 x0 x1 x2 xs0 = k0_pay2 x2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S2000x1024) hz2, View.ld_unit_zero (S := S1x1x1024) hz3]

/-- … and stores into the output block what it reads back from the accumulator: the same payload. -/
theorem out_last (c : Dev nD) (i : grid0.Coords) (arg2 : Memref sig .tc .vmem S2000x1024 .f32) (harg2 : arg2.IsWhole) (arg3 : Memref sig .tc .vmem S2000x1024 .f32) (harg3 : arg3.IsWhole) (arg4 : Memref sig .tc .vmem S2000x1024 .f32) (harg4 : arg4.IsWhole) (arg5 : Memref sig .tc .vmem S1x1x1024 .f32) (harg5 : arg5.IsWhole) (arg6 : Memref sig .tc .vmem S1x1x1024 .f32) (harg6 : arg6.IsWhole) (hc0 : ¬cond0_0 i) (hc1 : cond0_1 i)
    (x0 x1 x2 : Vec F S2000x1024 .f32) (xs0 : Vec F S1x1x1024 .f32) :
    out0_C_3 c i arg2 harg2 arg3 harg3 arg4 harg4 arg5 harg5 arg6 harg6 hc0 hc1 x0 x1 x2 xs0 = k0_pay2 x2 x0 x1 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x1024) _ hz3]
  simp only [View.readAt_eq_ld, harg2.read_unread, harg3.read_unread, harg4.read_unread, harg6.read_unread,
    View.ld_unit_zero (S := S2000x1024) hz2, View.ld_unit_zero (S := S1x1x1024) hz3]

end Cert.KernelIdeal.NllBody

end
-- ==== Proof.Accum.lean ====
/-
  The accumulator across the grid (at any float instance). The grid is 2 cores × 4 steps, visited in the order
  n = 4p + r. After point n the scratch accumulator holds `acc n`: one step's payload of point n's three input blocks
  and of the accumulator before it — the zero block if n is a core's first step (n ≡ 0 mod 4), what point n − 1 left
  otherwise. The generated frame certificate defines the same thing case by case over the pieces its runs found; that
  the two agree is an induction on n, the three control cases read back in BodyValue. At a core's last step
  (n ≡ 3 mod 4) the output block holds the same `acc n`.
-/
import proofs.«159247_j90117003804744_2_alg».proof.Proof.BodyValue

noncomputable section

open Idealize.ShloMosaic Idealize.ShloMosaic.TcCoe Idealize.SL.Sem
open Idealize.ShloMosaic.Pipeline (Dat)

namespace Cert.KernelIdeal.NllAccum

open Cert.KernelIdeal Cert.KernelIdeal.Gen Cert.KernelIdeal.NllBody

variable {F : FTy → Type} [FloatOps F]
variable (m : (ℓ : Loc nD τ sig) → Buf (Elt F) ℓ)

/-- One step at grid point `t`: the payload of the point's target, mean and variance blocks and of the accumulator
    `a` the step finds. -/
def stepAt (c : Dev nD) (t : Fin cfg0.N) (a : Vec F S1x1x1024 .f32) : Vec F S1x1x1024 .f32 :=
  k0_pay2 (iblk m c 2 t) (iblk m c 0 t) (iblk m c 1 t) a

/-- What the accumulator holds after point `n`: the step at `n` from zero at a core's first step, from what point
    `n − 1` left otherwise. -/
def acc (c : Dev nD) : (n : ℕ) → n < cfg0.N → Vec F S1x1x1024 .f32
  | 0, h => stepAt m c ⟨0, h⟩ k0_pay1
  | n + 1, h => stepAt m c ⟨n + 1, h⟩ (if (n + 1) % 4 = 0 then k0_pay1 else acc c n (Nat.lt_of_succ_lt h))

/-- At a core's first step the accumulator is left at the step from zero. -/
theorem step_first (c : Dev nD) (t : Fin cfg0.N) (h0 : t.val % 4 = 0) (h1 : ¬t.val % 4 = 3) :
    (outsAt0 m c t.val t.isLt).2 = stepAt m c t k0_pay1 := by
  rw [outsAt0_A m c t h0 h1]
  dsimp only
  exact acc_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At a middle step it is left at the step from what the point before left. -/
theorem step_middle (c : Dev nD) (t : Fin cfg0.N) (h0 : ¬t.val % 4 = 0) (h1 : ¬t.val % 4 = 3) :
    (outsAt0 m c t.val t.isLt).2 = stepAt m c t (outsAt0 m c (t.val - 1) (Nat.lt_of_le_of_lt (Nat.sub_le _ _) t.isLt)).2 := by
  rw [outsAt0_B m c t h0 h1]
  dsimp only
  exact acc_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a core's last step likewise … -/
theorem step_last (c : Dev nD) (t : Fin cfg0.N) (h0 : ¬t.val % 4 = 0) (h1 : t.val % 4 = 3) :
    (outsAt0 m c t.val t.isLt).2 = stepAt m c t (outsAt0 m c (t.val - 1) (Nat.lt_of_le_of_lt (Nat.sub_le _ _) t.isLt)).2 := by
  rw [outsAt0_C m c t h0 h1]
  dsimp only
  exact acc_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- … and the output block is left at the same contents. -/
theorem step_last_out (c : Dev nD) (t : Fin cfg0.N) (h0 : ¬t.val % 4 = 0) (h1 : t.val % 4 = 3) :
    (outsAt0 m c t.val t.isLt).1 = stepAt m c t (outsAt0 m c (t.val - 1) (Nat.lt_of_le_of_lt (Nat.sub_le _ _) t.isLt)).2 := by
  rw [outsAt0_C m c t h0 h1]
  dsimp only
  exact out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- The scratch component of the generated point-by-point contents is `acc`: by induction on the point, the case at
    each point chosen by its residue mod 4. -/
theorem outsAt_snd (c : Dev nD) : ∀ (n : ℕ) (h : n < cfg0.N), (outsAt0 m c n h).2 = acc m c n h := by
  intro n
  induction n with
  | zero => intro h; exact step_first m c ⟨0, h⟩ rfl (by show ¬0 % 4 = 3; decide)
  | succ n ih =>
    intro h
    by_cases h0 : (n + 1) % 4 = 0
    · have h1 : ¬(n + 1) % 4 = 3 := by rw [h0]; decide
      refine (step_first m c ⟨n + 1, h⟩ h0 h1).trans ?_
      show stepAt m c ⟨n + 1, h⟩ k0_pay1 = stepAt m c ⟨n + 1, h⟩ (if (n + 1) % 4 = 0 then k0_pay1 else acc m c n _)
      rw [if_pos h0]
    · have e : (outsAt0 m c (n + 1) h).2 = stepAt m c ⟨n + 1, h⟩ (outsAt0 m c n (Nat.lt_of_succ_lt h)).2 := by
        by_cases h1 : (n + 1) % 4 = 3
        · exact step_last m c ⟨n + 1, h⟩ h0 h1
        · exact step_middle m c ⟨n + 1, h⟩ h0 h1
      refine e.trans ?_
      show stepAt m c ⟨n + 1, h⟩ (outsAt0 m c n _).2
        = stepAt m c ⟨n + 1, h⟩ (if (n + 1) % 4 = 0 then k0_pay1 else acc m c n _)
      rw [if_neg h0, ih]

/-- At a core's last step the output block is left at the accumulator's new contents. -/
theorem outsAt_fst (c : Dev nD) (t : Fin cfg0.N) (h1 : t.val % 4 = 3) :
    (outsAt0 m c t.val t.isLt).1 = acc m c t.val t.isLt := by
  obtain ⟨n, h⟩ := t
  cases n with
  | zero => exact absurd (show 0 % 4 = 3 from h1) (by decide)
  | succ n =>
    have h1' : (n + 1) % 4 = 3 := h1
    have h0 : ¬(n + 1) % 4 = 0 := by intro h0; rw [h0] at h1'; exact absurd h1' (by decide)
    refine (step_last_out m c ⟨n + 1, h⟩ h0 h1').trans ?_
    show stepAt m c ⟨n + 1, h⟩ (outsAt0 m c n _).2
      = stepAt m c ⟨n + 1, h⟩ (if (n + 1) % 4 = 0 then k0_pay1 else acc m c n _)
    rw [if_neg h0, outsAt_snd m c n]

end Cert.KernelIdeal.NllAccum

end
-- ==== Proof.SumLaws.lean ====
/-
  The laws of finite sums of extended reals the certificate rests on. None needs a term to be finite: on the extended
  reals addition is commutative and associative everywhere, and a NON-NEGATIVE REAL factor distributes over a sum
  everywhere (an infinite factor, or a negative one meeting both infinities, would not).

  * `nllTerm`       one entry's term, (t − m)² / v + log v;
  * `nllMean`       the result as a function of the grand total T: (½ · T) / 8192000 + log 2π;
  * `coe_mul_sum`   c · Σ f = Σ c · f                      for a real c ≥ 0;
  * `mean_law`      (Σ_j (c · s_j + L)) / N = (c · Σ_j s_j) / N + L   for reals c ≥ 0, L, and N > 0 the number of j's —
                    the mean of "half a cell's sum plus a constant" is "half the grand total over N, plus the constant";
  * `total_by_blocks`  the grand total over a [16000, 1024] array, taken core by core, lane by lane, step by step
                    and row by row — index (2000·(4p + r) + ρ, l) — is the total over all its indices.
-/
import Idealize.ShloMosaic.PureOps.Ideal
import Idealize.ShloMosaic.Lib.ValueIdx

noncomputable section

namespace Cert.NllLaws

open Idealize.ShloMosaic Idealize.ShloMosaic.ValueIdx

/-- One entry's term of the negative log-likelihood: `(t − m)² / v + log v` of a mean `m`, a variance `v` and a target
    `t`, with the extended reals' division and logarithm (PureOps/Ideal.lean). Both programs compute exactly this, entry
    by entry; nothing below looks inside it. -/
def nllTerm (m v t : EReal) : EReal := Ideal.div ((t - m) * (t - m)) v + Ideal.log v

/-- The result both programs end with, as a function of the grand total `T` of all 16 384 000 entries' terms: half of
    `0 + T`, over the 8 192 000 cells, plus the single-precision log 2π. -/
def nllMean (T : EReal) : EReal :=
  Ideal.div (((1 / 2 : ℝ) : EReal) * (0 + T)) ((8192000 : ℝ) : EReal) + ((7708615 / 4194304 : ℝ) : EReal)

/-- A non-negative real factor distributes over a finite sum of extended reals. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The mean of `c · s_j + L` over `N` cells is `c` times the grand total, over `N`, plus `L`: the constant comes
    out of the mean because `N · L / N = L` is an identity of REALS, and the real factors `c` and `1/N`, being
    non-negative, distribute over the extended-real sums whatever the `s_j` are. -/
theorem mean_law {ι : Type*} [Fintype ι] (c L N : ℝ) (hc : 0 ≤ c) (hN : 0 < N)
    (hcard : (Fintype.card ι : ℝ) = N) (s : ι → EReal) :
    Ideal.div (0 + ∑ j, ((c : EReal) * (0 + s j) + (L : EReal))) (N : EReal)
      = Ideal.div ((c : EReal) * (0 + ∑ j, s j)) (N : EReal) + (L : EReal) := by
  have hN0 : N ≠ 0 := ne_of_gt hN
  have hinv : (0 : EReal) ≤ ((1 / N : ℝ) : EReal) := EReal.coe_nonneg.mpr (by positivity)
  rw [Ideal.div_coe hN0, Ideal.div_coe hN0]
  simp only [zero_add]
  rw [Finset.sum_add_distrib, ← coe_mul_sum c hc, Finset.sum_const, Finset.card_univ, EReal.nsmul_eq_mul,
    EReal.right_distrib_of_nonneg_of_ne_top hinv (EReal.coe_ne_top _)]
  congr 1
  have hc' : ((Fintype.card ι : ℕ) : EReal) = ((N : ℝ) : EReal) := by
    rw [← hcard]; rfl
  rw [hc', ← EReal.coe_mul, ← EReal.coe_mul]
  congr 1
  field_simp

/-- Row `2000·(4p + r) + ρ` of 16000: core `p` of 2, step `r` of 4, row `ρ` of the 2000 in a block. -/
def rowEquiv : Fin 2 × Fin 4 × Fin 2000 ≃ Fin 16000 where
  toFun x := ⟨2000 * (4 * x.1.val + x.2.1.val) + x.2.2.val, by
    have := x.1.isLt; have := x.2.1.isLt; have := x.2.2.isLt; omega⟩
  invFun R := (⟨R.val / 8000, by have := R.isLt; omega⟩, ⟨R.val / 2000 % 4, by omega⟩, ⟨R.val % 2000, by omega⟩)
  left_inv x := by
    obtain ⟨p, r, ρ⟩ := x
    have := p.isLt; have := r.isLt; have := ρ.isLt
    refine Prod.ext (Fin.ext ?_) (Prod.ext (Fin.ext ?_) (Fin.ext ?_))
    · show (2000 * (4 * p.val + r.val) + ρ.val) / 8000 = p.val; omega
    · show (2000 * (4 * p.val + r.val) + ρ.val) / 2000 % 4 = r.val; omega
    · show (2000 * (4 * p.val + r.val) + ρ.val) % 2000 = ρ.val; omega
  right_inv R := by
    have := R.isLt
    refine Fin.ext ?_
    show 2000 * (4 * (R.val / 8000) + R.val / 2000 % 4) + R.val % 2000 = R.val
    omega

theorem rowEquiv_val (p : Fin 2) (r : Fin 4) (ρ : Fin 2000) :
    (rowEquiv (p, r, ρ)).val = 2000 * (4 * p.val + r.val) + ρ.val := rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- The grand total over a [16000, 1024] array, taken the way the kernel and the lines after it visit it — for each
    entry `(p, 0, l)` of the [2, 1, 1024] partial sums, over the four steps `r` and the 2000 rows `ρ` of a block,
    the entry at row `2000·(4p + r) + ρ` and lane `l` — is the sum over every index: each index is met once. -/
theorem total_by_blocks {M : Type*} [AddCommMonoid M] (g : (⟨2, ![16000, 1024]⟩ : Shape).Idx → M) :
    ∑ q : (⟨3, ![2, 1, 1024]⟩ : Shape).Idx, ∑ r : Fin 4, ∑ ρ : Fin 2000, g (ix2 (rowEquiv (q 0, r, ρ)) (q 2))
      = ∑ I, g I := by
  rw [sum_idx3, sum_idx2, ← Equiv.sum_comp rowEquiv, Fintype.sum_prod_type]
  refine Finset.sum_congr rfl fun p _ => ?_
  rw [Fin.sum_univ_one, Fintype.sum_prod_type, Finset.sum_comm]
  refine Finset.sum_congr rfl fun r _ => ?_
  rw [Finset.sum_comm]

end Cert.NllLaws

end
-- ==== Proof.PayloadValue.lean ====
/-
  The kernel body's arithmetic at the ideal values, read at an entry. One step's payload over the target block `v3`, the
  mean block `v5`, the variance block `v8` (each [2000, 1024]) and the accumulator `v16` ([1, 1, 1024]) is, at lane
  `l`, the accumulator's entry plus the sum down column `l` of the 2000 rows' terms `(t − m)² / v + log v`: the
  shape casts are re-labellings, and the row reduction with its neutral start is a plain sum. The block the first
  step stores is zero.
-/
import proofs.«159247_j90117003804744_2_alg».proof.Proof.Gen.KernelIdeal.Skeleton
import proofs.«159247_j90117003804744_2_alg».proof.Proof.SumLaws
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.NllPayload

open Cert.KernelIdeal Cert.KernelIdeal.Gen Cert.NllLaws

/-- The block a core's first step writes over the accumulator is zero at every entry. -/
theorem zero_apply (y : S1x1x1024.Idx) : k0_pay1 (F := Ideal) y = 0 := by
  unfold k0_pay1
  simp only [shapeCast_self]
  exact Ideal.ofBits_zero_f32

/-- One step's payload at lane `l`: the accumulator there plus column `l`'s sum of the block's terms. -/
theorem step_apply (v3 v5 v8 : Vec Ideal S2000x1024 .f32) (v16 : Vec Ideal S1x1x1024 .f32) (u v : Fin 1) (l : Fin 1024) :
    k0_pay2 (F := Ideal) v3 v5 v8 v16 (ix3 u v l)
      = v16 (ix3 u v l) + ∑ ρ : Fin 2000, nllTerm (v5 (ix2 ρ l)) (v8 (ix2 ρ l)) (v3 (ix2 ρ l)) := by
  unfold k0_pay2
  simp only [shapeCast_self]
  refine (addf_apply _ _ _).trans (congrArg (v16 (ix3 u v l) + ·) ?_)
  refine (shapeCast_ab_1ab_apply _ _ u v l).trans ?_
  refine (shapeCast_a_1a_apply _ _ v l).trans ?_
  refine (Ideal.multiReduction_add_single _ _ _ _ _ (ix1 l)).trans ?_
  refine Finset.sum_congr rfl fun ρ _ => ?_
  have hI : reduces_S2000x1024_S1024.lift (ix1 l) ρ = (ix2 ρ l : S2000x1024.Idx) :=
    funext fun a => Fin.ext (by match a with | ⟨0, _⟩ => rfl | ⟨1, _⟩ => rfl)
  rw [hI]
  rfl

end Cert.KernelIdeal.NllPayload

end
-- ==== Proof.Partials.lean ====
/-
  The kernel's [2, 1, 1024] array of partial sums, at the ideal values.

  `colSum t l` is, for grid point `t` and lane `l`, the sum down column `l` of the 2000 rows of the point's blocks of
  the terms `(t − m)² / v + log v`. One step adds it to the accumulator; so after core `p`'s last step (point 4p + 3)
  lane `l` of the accumulator, and of the output block written back there, is `colSum` summed over the core's four
  points. The output's blocks — block `p` written back at point 4p + 3 — tile the array, which therefore ends holding
  `partials`: entry `(p, 0, l)` the sum over core `p`'s four points of `colSum · l`.
-/
import proofs.«159247_j90117003804744_2_alg».proof.Proof.Accum
import proofs.«159247_j90117003804744_2_alg».proof.Proof.PayloadValue

noncomputable section

open Idealize.ShloMosaic Idealize.ShloMosaic.TcCoe Idealize.SL.Sem Idealize.ShloMosaic.ValueIdx
open Idealize.ShloMosaic.Pipeline (Dat)

namespace Cert.KernelIdeal.NllPartials

open Cert.KernelIdeal Cert.KernelIdeal.Gen Cert.KernelIdeal.NllAccum Cert.KernelIdeal.NllPayload Cert.NllLaws

variable (m : (ℓ : Loc nD τ sig) → Buf (Elt Ideal) ℓ)

/-- Grid point `4p + r`: core `p`, step `r`. -/
def pt (p : Fin 2) (r : Fin 4) : Fin cfg0.N :=
  ⟨4 * p.val + r.val, by rw [show cfg0.N = 8 from N_0]; have := p.isLt; have := r.isLt; omega⟩

/-- Column `l`'s sum of the terms of the three blocks at point `t`. -/
def colSum (c : Dev nD) (t : Fin cfg0.N) (l : Fin 1024) : EReal :=
  ∑ ρ : Fin 2000, nllTerm ((iblk m c 0 t : Vec Ideal S2000x1024 .f32) (ix2 ρ l))
    ((iblk m c 1 t : Vec Ideal S2000x1024 .f32) (ix2 ρ l)) ((iblk m c 2 t : Vec Ideal S2000x1024 .f32) (ix2 ρ l))

/-- One step at point `t` adds the point's column sums to the accumulator. -/
theorem stepAt_apply (c : Dev nD) (t : Fin cfg0.N) (a : Vec Ideal S1x1x1024 .f32) (u v : Fin 1) (l : Fin 1024) :
    stepAt m c t a (ix3 u v l) = a (ix3 u v l) + colSum m c t l :=
  step_apply (iblk m c 2 t) (iblk m c 0 t) (iblk m c 1 t) a u v l

theorem acc_zero_apply (c : Dev nD) (h : 0 < cfg0.N) (u v : Fin 1) (l : Fin 1024) :
    acc m c 0 h (ix3 u v l) = colSum m c ⟨0, h⟩ l := by
  show stepAt m c ⟨0, h⟩ (k0_pay1 (F := Ideal)) (ix3 u v l) = _
  rw [stepAt_apply, zero_apply, zero_add]

theorem acc_reset_apply (c : Dev nD) (n : ℕ) (h : n + 1 < cfg0.N) (h0 : (n + 1) % 4 = 0) (u v : Fin 1) (l : Fin 1024) :
    acc m c (n + 1) h (ix3 u v l) = colSum m c ⟨n + 1, h⟩ l := by
  show stepAt m c ⟨n + 1, h⟩ (if (n + 1) % 4 = 0 then (k0_pay1 (F := Ideal)) else acc m c n _) (ix3 u v l) = _
  rw [if_pos h0, stepAt_apply, zero_apply, zero_add]

theorem acc_step_apply (c : Dev nD) (n : ℕ) (h : n + 1 < cfg0.N) (h0 : ¬(n + 1) % 4 = 0) (u v : Fin 1) (l : Fin 1024) :
    acc m c (n + 1) h (ix3 u v l) = acc m c n (Nat.lt_of_succ_lt h) (ix3 u v l) + colSum m c ⟨n + 1, h⟩ l := by
  show stepAt m c ⟨n + 1, h⟩ (if (n + 1) % 4 = 0 then (k0_pay1 (F := Ideal)) else acc m c n _) (ix3 u v l) = _
  rw [if_neg h0, stepAt_apply]

/-- After core `p`'s last step, lane `l` of the accumulator is the core's four points' column sums added up. -/
theorem acc_core (c : Dev nD) (p : Fin 2) (u v : Fin 1) (l : Fin 1024) :
    acc m c (pt p 3).val (pt p 3).isLt (ix3 u v l) = ∑ r : Fin 4, colSum m c (pt p r) l := by
  have hN : cfg0.N = 8 := N_0
  have h0 : 0 < cfg0.N := by rw [hN]; decide
  have h1 : 1 < cfg0.N := by rw [hN]; decide
  have h2 : 2 < cfg0.N := by rw [hN]; decide
  have h3 : 3 < cfg0.N := by rw [hN]; decide
  have h4 : 4 < cfg0.N := by rw [hN]; decide
  have h5 : 5 < cfg0.N := by rw [hN]; decide
  have h6 : 6 < cfg0.N := by rw [hN]; decide
  have h7 : 7 < cfg0.N := by rw [hN]; decide
  rw [Fin.sum_univ_four]
  match p with
  | ⟨0, _⟩ =>
    show acc m c 3 h3 (ix3 u v l) = _
    calc acc m c 3 h3 (ix3 u v l)
        = acc m c 2 h2 (ix3 u v l) + colSum m c ⟨3, h3⟩ l := acc_step_apply m c 2 h3 (by decide) u v l
      _ = acc m c 1 h1 (ix3 u v l) + colSum m c ⟨2, h2⟩ l + colSum m c ⟨3, h3⟩ l :=
          congrArg (· + colSum m c ⟨3, h3⟩ l) (acc_step_apply m c 1 h2 (by decide) u v l)
      _ = acc m c 0 h0 (ix3 u v l) + colSum m c ⟨1, h1⟩ l + colSum m c ⟨2, h2⟩ l + colSum m c ⟨3, h3⟩ l :=
          congrArg (· + colSum m c ⟨2, h2⟩ l + colSum m c ⟨3, h3⟩ l) (acc_step_apply m c 0 h1 (by decide) u v l)
      _ = colSum m c ⟨0, h0⟩ l + colSum m c ⟨1, h1⟩ l + colSum m c ⟨2, h2⟩ l + colSum m c ⟨3, h3⟩ l :=
          congrArg (· + colSum m c ⟨1, h1⟩ l + colSum m c ⟨2, h2⟩ l + colSum m c ⟨3, h3⟩ l) (acc_zero_apply m c h0 u v l)
      _ = _ := rfl
  | ⟨1, _⟩ =>
    show acc m c 7 h7 (ix3 u v l) = _
    calc acc m c 7 h7 (ix3 u v l)
        = acc m c 6 h6 (ix3 u v l) + colSum m c ⟨7, h7⟩ l := acc_step_apply m c 6 h7 (by decide) u v l
      _ = acc m c 5 h5 (ix3 u v l) + colSum m c ⟨6, h6⟩ l + colSum m c ⟨7, h7⟩ l :=
          congrArg (· + colSum m c ⟨7, h7⟩ l) (acc_step_apply m c 5 h6 (by decide) u v l)
      _ = acc m c 4 h4 (ix3 u v l) + colSum m c ⟨5, h5⟩ l + colSum m c ⟨6, h6⟩ l + colSum m c ⟨7, h7⟩ l :=
          congrArg (· + colSum m c ⟨6, h6⟩ l + colSum m c ⟨7, h7⟩ l) (acc_step_apply m c 4 h5 (by decide) u v l)
      _ = colSum m c ⟨4, h4⟩ l + colSum m c ⟨5, h5⟩ l + colSum m c ⟨6, h6⟩ l + colSum m c ⟨7, h7⟩ l :=
          congrArg (· + colSum m c ⟨5, h5⟩ l + colSum m c ⟨6, h6⟩ l + colSum m c ⟨7, h7⟩ l) (acc_reset_apply m c 3 h4 (by decide) u v l)
      _ = _ := rfl

/-- What the [2, 1, 1024] result array ends holding: entry `(p, 0, l)` is core `p`'s four points' column sums. -/
def partials (c : Dev nD) : S2x1x1024.Idx → EReal :=
  fun q => ∑ r : Fin 4, colSum m c (pt (q 0) r) (q 2)

/-- The output window's block index at a point: the core on the leading axis, zero elsewhere. -/
theorem idx_out : ∀ t : Fin cfg0.N, win0_3.index t (0 : Fin 3) = t.val / 4 ∧ win0_3.index t (1 : Fin 3) = 0
    ∧ win0_3.index t (2 : Fin 3) = 0 :=
  (by decide +kernel : ∀ t : Fin grid0.N, win0_3.index t (0 : Fin 3) = t.val / 4 ∧ win0_3.index t (1 : Fin 3) = 0
    ∧ win0_3.index t (2 : Fin 3) = 0)

/-- WHAT A WRITE-BACK WRITES: at a core's last step, block `p` of `partials`. -/
theorem flushed_eq (c : Dev nD) (t : Fin cfg0.N) (hf : (cfg0.win 3).flush t = true) :
    (dats m 0 c).flushed 3 t = ((cfg0.win 3).blk t).view.read (Elt Ideal) (partials m c) := by
  have hN : cfg0.N = 8 := N_0
  have h3 : t.val % 4 = 3 := (flush0_3 t).mp hf
  show (cfg0.win 3).cut (grid0.coords t) ((dats m 0 c).after 3 t) = _
  rw [after0_3, outsAt_fst m c t h3]
  obtain ⟨i0, i1, i2⟩ := idx_out t
  have htl : t.val < 8 := lt_of_lt_of_eq t.isLt hN
  obtain ⟨p, rfl⟩ : ∃ p : Fin 2, t = pt p 3 := ⟨⟨t.val / 4, by omega⟩, Fin.ext (by show t.val = 4 * (t.val / 4) + 3; omega)⟩
  funext y
  have hy0 : (y 0).val < 1 := (y 0).isLt
  have hy1 : (y 1).val < 1 := (y 1).isLt
  rw [eq_ix3 y]
  show acc m c (pt p 3).val (pt p 3).isLt (ix3 (y 0) (y 1) (y 2))
    = ∑ r : Fin 4, colSum m c (pt ((((cfg0.win 3).blk (pt p 3)).view.emb (ix3 (y 0) (y 1) (y 2))) 0) r)
        ((((cfg0.win 3).blk (pt p 3)).view.emb (ix3 (y 0) (y 1) (y 2))) 2)
  have e0 : (((cfg0.win 3).blk (pt p 3)).view.emb (ix3 (y 0) (y 1) (y 2))) 0 = p := Fin.ext (by
    show win0_3.index (pt p 3) (0 : Fin 3) * 1 + 1 * (y 0).val = p.val
    rw [i0]; show (4 * p.val + 3) / 4 * 1 + 1 * (y 0).val = p.val; omega)
  have e2 : (((cfg0.win 3).blk (pt p 3)).view.emb (ix3 (y 0) (y 1) (y 2))) 2 = y 2 := Fin.ext (by
    show win0_3.index (pt p 3) (2 : Fin 3) * 1024 + 1 * (y 2).val = (y 2).val
    rw [i2]; omega)
  rw [e0, e2]
  exact acc_core m c p (y 0) (y 1) (y 2)

/-- An index of the array is in point `t`'s block iff each coordinate is in the block's range on its axis. -/
theorem mem_blk (t : Fin cfg0.N) (i : S2x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v3).slice (win0_3.rect t)).set ↔ _
  rw [View.set_slice_whole, Rect.mem_set_unit]
  exact Iff.rfl

/-- THE ARRAY AFTER THE RUN is `partials`: entry `(p, 0, l)` lies in the block written back at point `4p + 3`. -/
theorem final_partials (c : Dev nD) : (dats m 0 c).arrAt 3 cfg0.N = partials m c :=
  (dats m 0 c).arrAt_eq_of_cover 3 (partials m c) (flushed_eq m c) fun i => by
    have hi0 : (i 0).val < 2 := (i 0).isLt
    have hi1 : (i 1).val < 1 := (i 1).isLt
    have hi2 : (i 2).val < 1024 := (i 2).isLt
    refine ⟨pt ⟨(i 0).val, hi0⟩ 3, (flush0_3 _).mpr (by show (4 * (i 0).val + 3) % 4 = 3; omega), ?_⟩
    obtain ⟨e0, e1, e2⟩ := idx_out (pt ⟨(i 0).val, hi0⟩ 3)
    rw [mem_blk]
    intro a
    match a with
    | ⟨0, _⟩ =>
      show win0_3.index (pt ⟨(i 0).val, hi0⟩ 3) (0 : Fin 3) * 1 ≤ (i 0).val
        ∧ (i 0).val < win0_3.index (pt ⟨(i 0).val, hi0⟩ 3) (0 : Fin 3) * 1 + 1
      rw [e0]; show (4 * (i 0).val + 3) / 4 * 1 ≤ (i 0).val ∧ (i 0).val < (4 * (i 0).val + 3) / 4 * 1 + 1; omega
    | ⟨1, _⟩ =>
      show win0_3.index (pt ⟨(i 0).val, hi0⟩ 3) (1 : Fin 3) * 1 ≤ (i 1).val
        ∧ (i 1).val < win0_3.index (pt ⟨(i 0).val, hi0⟩ 3) (1 : Fin 3) * 1 + 1
      rw [e1]; omega
    | ⟨2, _⟩ =>
      show win0_3.index (pt ⟨(i 0).val, hi0⟩ 3) (2 : Fin 3) * 1024 ≤ (i 2).val
        ∧ (i 2).val < win0_3.index (pt ⟨(i 0).val, hi0⟩ 3) (2 : Fin 3) * 1024 + 1024
      rw [e2]; omega

end Cert.KernelIdeal.NllPartials

end
-- ==== Proof.Consts.lean ====
/-
  The three float words both programs spell, as the extended reals they denote: one half, the count
  8 192 000 = 16 · 1024 · 10 · 50 of (batch, position, article, sample) cells, and the single-precision value of
  log 2π. Only that the last one is a REAL number (not which) matters to the proof.
-/
import Idealize.ShloMosaic.PureOps.Ideal

noncomputable section

namespace Cert.NllConsts

open Idealize.ShloMosaic

/-- The word `0x3F000000` denotes 1/2. -/
theorem ofBits_half : Ideal.ofBits .f32 0x3F000000#32 = ((1 / 2 : ℝ) : EReal) := by
  simp [Ideal.ofBits, Ideal.ieee, -EReal.coe_mul]; norm_num

/-- The word `0x4AFA0000` denotes 8 192 000. -/
theorem ofBits_count : Ideal.ofBits .f32 0x4AFA0000#32 = ((8192000 : ℝ) : EReal) := by
  simp [Ideal.ofBits, Ideal.ieee, -EReal.coe_mul]; norm_num

/-- The word `0x3FEB3F8E` (log 2π rounded to single precision) denotes the real 7708615 / 4194304. -/
theorem ofBits_log2pi : Ideal.ofBits .f32 0x3FEB3F8E#32 = ((7708615 / 4194304 : ℝ) : EReal) := by
  simp [Ideal.ofBits, Ideal.ieee, -EReal.coe_mul]; norm_num

end Cert.NllConsts

end
-- ==== Proof.KernelValue.lean ====
/-
  The kernel's result, at the ideal values, is `nllMean` of the grand total of the entries' terms.

  The three inputs are reshaped (row-major) to [16000, 1024] before the region; point `4p + r`'s block of such an array
  is its rows `2000·(4p + r) … + 1999`. So the column sums the accumulator collects are sums of the entry terms of the
  RESHAPED arrays, and the [2, 1, 1024] array of partial sums, summed over all its entries by the line after the
  region, meets every (row, lane) of [16000, 1024] once: the total over the reshaped arrays' indices. A row-major
  reshape is a bijection of indices, so that total is the total over the original arrays' indices. The remaining lines
  — times one half, over 8 192 000, plus log 2π — are `nllMean`.
-/
import proofs.«159247_j90117003804744_2_alg».proof.Proof.Partials
import proofs.«159247_j90117003804744_2_alg».proof.Proof.Consts
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.NllValue

open Cert.KernelIdeal Cert.KernelIdeal.Gen Cert.KernelIdeal.NllAccum Cert.KernelIdeal.NllPayload
open Cert.KernelIdeal.NllPartials Cert.NllLaws Cert.NllConsts

variable (m : (ℓ : Loc nD τ sig) → Buf (Elt Ideal) ℓ)

/-! ## The arrays the region finds: the arguments, reshaped -/

theorem V_mean (c : Dev nD) : (V m c main_v0 : S16000x1024.Idx → EReal)
    = shapeCast S16000x1024 (m ((c : Thread nD τ).loc main_arg0)) shapeCasts_S16x1024x10x2x50_S16000x1024 := by
  show StableHlo.after hostOps0 (fun b => m (c, b)) (Proc.devRef .tc main_v0) = _
  after_results
  rfl

theorem V_var (c : Dev nD) : (V m c main_v1 : S16000x1024.Idx → EReal)
    = shapeCast S16000x1024 (m ((c : Thread nD τ).loc main_arg1)) shapeCasts_S16x1024x10x2x50_S16000x1024 := by
  show StableHlo.after hostOps0 (fun b => m (c, b)) (Proc.devRef .tc main_v1) = _
  after_results
  rfl

theorem V_target (c : Dev nD) : (V m c main_v2 : S16000x1024.Idx → EReal)
    = shapeCast S16000x1024 (m ((c : Thread nD τ).loc main_arg2)) shapeCasts_S16x1024x10x2x50_S16000x1024 := by
  show StableHlo.after hostOps0 (fun b => m (c, b)) (Proc.devRef .tc main_v2) = _
  after_results
  rfl

/-- The input windows' block indices at a point: the point's number on the row axis, zero on the lane axis. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Row `ρ`, lane `l` of the mean block at point `4p + r` is row `2000·(4p + r) + ρ`, lane `l` of the reshaped means. -/
theorem iblk0_apply (c : Dev nD) (p : Fin 2) (r : Fin 4) (ρ : Fin 2000) (l : Fin 1024) :
    (iblk m c 0 (pt p r) : Vec Ideal S2000x1024 .f32) (ix2 ρ l) = V m c main_v0 (ix2 (rowEquiv (p, r, ρ)) l) := by
  obtain ⟨e00, e01, e10, e11, e20, e21⟩ := idx_in (pt p r)
  unfold iblk
  rw [View.read_apply]
  show V m c main_v0 _ = V m c main_v0 _
  congr 1
  funext a
  apply Fin.ext
  match a with
  | ⟨0, _⟩ =>
    show win0_0.index (pt p r) (0 : Fin 2) * 2000 + 1 * ρ.val = 2000 * (4 * p.val + r.val) + ρ.val
    rw [e00]; show (4 * p.val + r.val) * 2000 + 1 * ρ.val = _; omega
  | ⟨1, _⟩ =>
    show win0_0.index (pt p r) (1 : Fin 2) * 1024 + 1 * l.val = l.val
    rw [e01]; omega

/-- The same for the variance block. -/
theorem iblk1_apply (c : Dev nD) (p : Fin 2) (r : Fin 4) (ρ : Fin 2000) (l : Fin 1024) :
    (iblk m c 1 (pt p r) : Vec Ideal S2000x1024 .f32) (ix2 ρ l) = V m c main_v1 (ix2 (rowEquiv (p, r, ρ)) l) := by
  obtain ⟨e00, e01, e10, e11, e20, e21⟩ := idx_in (pt p r)
  unfold iblk
  rw [View.read_apply]
  show V m c main_v1 _ = V m c main_v1 _
  congr 1
  funext a
  apply Fin.ext
  match a with
  | ⟨0, _⟩ =>
    show win0_1.index (pt p r) (0 : Fin 2) * 2000 + 1 * ρ.val = 2000 * (4 * p.val + r.val) + ρ.val
    rw [e10]; show (4 * p.val + r.val) * 2000 + 1 * ρ.val = _; omega
  | ⟨1, _⟩ =>
    show win0_1.index (pt p r) (1 : Fin 2) * 1024 + 1 * l.val = l.val
    rw [e11]; omega

/-- The same for the target block. -/
theorem iblk2_apply (c : Dev nD) (p : Fin 2) (r : Fin 4) (ρ : Fin 2000) (l : Fin 1024) :
    (iblk m c 2 (pt p r) : Vec Ideal S2000x1024 .f32) (ix2 ρ l) = V m c main_v2 (ix2 (rowEquiv (p, r, ρ)) l) := by
  obtain ⟨e00, e01, e10, e11, e20, e21⟩ := idx_in (pt p r)
  unfold iblk
  rw [View.read_apply]
  show V m c main_v2 _ = V m c main_v2 _
  congr 1
  funext a
  apply Fin.ext
  match a with
  | ⟨0, _⟩ =>
    show win0_2.index (pt p r) (0 : Fin 2) * 2000 + 1 * ρ.val = 2000 * (4 * p.val + r.val) + ρ.val
    rw [e20]; show (4 * p.val + r.val) * 2000 + 1 * ρ.val = _; omega
  | ⟨1, _⟩ =>
    show win0_2.index (pt p r) (1 : Fin 2) * 1024 + 1 * l.val = l.val
    rw [e21]; omega

/-- The term at an index of the reshaped arrays. -/
def termAt (c : Dev nD) : S16000x1024.Idx → EReal :=
  fun I => nllTerm (V m c main_v0 I) (V m c main_v1 I) (V m c main_v2 I)

/-- A point's column sum is a sum of terms of the reshaped arrays down 2000 consecutive rows. -/
theorem colSum_eq (c : Dev nD) (p : Fin 2) (r : Fin 4) (l : Fin 1024) :
    colSum m c (pt p r) l = ∑ ρ : Fin 2000, termAt m c (ix2 (rowEquiv (p, r, ρ)) l) := by
  unfold colSum
  refine Finset.sum_congr rfl fun ρ _ => ?_
  rw [iblk0_apply, iblk1_apply, iblk2_apply]
  rfl

/-- THE GRAND TOTAL: all entries of the partial sums add up to the sum of the terms over every index of the ORIGINAL
    arrays — every (row, lane) of the reshaped arrays is met once, and the reshape is a bijection of indices. -/
theorem sum_partials (c : Dev nD) :
    ∑ q, partials m c q = ∑ i, nllTerm (m ((c : Thread nD τ).loc main_arg0) i) (m ((c : Thread nD τ).loc main_arg1) i)
      (m ((c : Thread nD τ).loc main_arg2) i) := by
  unfold partials
  refine (Finset.sum_congr rfl fun q _ => Finset.sum_congr rfl fun r _ => colSum_eq m c (q 0) r (q 2)).trans ?_
  refine (total_by_blocks (termAt m c)).trans ?_
  unfold termAt
  rw [V_mean, V_var, V_target]
  exact Equiv.sum_comp (Shape.reshapeEquiv shapeCasts_S16x1024x10x2x50_S16000x1024)
    (fun i => nllTerm (m ((c : Thread nD τ).loc main_arg0) i) (m ((c : Thread nD τ).loc main_arg1) i)
      (m ((c : Thread nD τ).loc main_arg2) i))

/-! ## The lines after the region -/

/-- What the lines after the region compute, of the array of partial sums the region leaves. -/
theorem tail_value (c : Dev nD) : Pipeline.afterTail₀ cfgs (dats m) 0 (V0 m) [hostOps1] c main_v7
    = addf (Host.divf (mulf (constant (F := Ideal) S_ .f32 0x3F000000#32)
        (Host.reduceAdd (partials m c) (constant (F := Ideal) S_ .f32 0x00000000#32) reducesTo_S2x1x1024_S_d0_1_2 h_S_))
        (constant (F := Ideal) S_ .f32 0x4AFA0000#32)) (constant (F := Ideal) S_ .f32 0x3FEB3F8E#32) := by
  unfold Pipeline.afterTail₀
  show StableHlo.after hostOps1 _ (Proc.devRef .tc main_v7) = _
  after_results
  rw [show Pipeline.withArrays (cfgs 0).spec c (V0 m c) (fun w => (dats m 0 c).arrAt w (cfgs 0).N)
      (Proc.devRef .tc main_v3) = partials m c from
    (Pipeline.withArrays_arr spec0 launch0.win.arr_inj c _ _ 3).trans (final_partials m c)]

/-- THE KERNEL'S RESULT is `nllMean` of the grand total. -/
theorem kernel_value (c : Dev nD) : Pipeline.afterTail₀ cfgs (dats m) 0 (V0 m) [hostOps1] c main_v7
    = fun _ => nllMean (∑ i, nllTerm (m ((c : Thread nD τ).loc main_arg0) i) (m ((c : Thread nD τ).loc main_arg1) i)
      (m ((c : Thread nD τ).loc main_arg2) i)) := by
  rw [tail_value]
  funext i
  simp only [addf, Host.divf, mulf, constant, Host.reduceAdd, Ideal.hostReduceAdd_def, Ideal.addf_def,
    Ideal.hostDivf_def, Ideal.mulf_def, Ideal.ofBits_def]
  rw [Ideal.hostReduceAdd_total reducesTo_S2x1x1024_S_d0_1_2 (fun b => b.elim0), ofBits_half, ofBits_count,
    ofBits_log2pi, Ideal.ofBits_zero_f32, sum_partials]
  rfl

/-! ## The run, read -/

/-- Every weakly fair execution of the idealized kernel terminates with its result at `nllMean` of the grand total
    and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v7)
        = (fun _ => nllMean (∑ i, nllTerm (m ((c : Thread nD τ).loc main_arg0) i)
            (m ((c : Thread nD τ).loc main_arg1) i) (m ((c : Thread nD τ).loc main_arg2) i)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.NllValue

end
-- ==== Proof.RefValue.lean ====
/-
  The reference's result, at the ideal values, is `nllMean` of the grand total of the entries' terms.

  The reference sums each cell's two terms (the size-2 coordinate axis), halves, adds log 2π, and takes the mean over
  the 8 192 000 cells (batch, position, article, sample). Read stage by stage (the generated read-at-an-index lemmas),
  its result is `(0 + Σ_cells (½ · (0 + Σ_d term) + log 2π)) / 8192000`. The mean law takes the constant out and
  the one half out of the sum; and summing first over a cell's two coordinates and then over the cells is summing over
  every entry, each entry `(b, s, a, d, n)` being coordinate `d` of exactly one cell `(b, s, a, n)`.
-/
import proofs.«159247_j90117003804744_2_alg».proof.Proof.Gen.ReferenceIdeal.Run
import proofs.«159247_j90117003804744_2_alg».proof.Proof.Gen.ReferenceIdeal.Read
import proofs.«159247_j90117003804744_2_alg».proof.Proof.SumLaws
import proofs.«159247_j90117003804744_2_alg».proof.Proof.Consts

noncomputable section

open Idealize.ShloMosaic Idealize.ShloMosaic.ValueIdx

namespace Cert.ReferenceIdeal.NllRef

open Cert.ReferenceIdeal Cert.ReferenceIdeal.Gen Cert.ReferenceIdeal.Read Cert.NllLaws Cert.NllConsts

/-- Entry `(b, s, a, d, n)` is coordinate `d` of cell `(b, s, a, n)`: the cells paired with the two coordinates are the
    entries. -/
def cellEquiv : S16x1024x10x50.Idx × Fin 2 ≃ S16x1024x10x2x50.Idx where
  toFun x := idx_main_v5 x.1 x.2
  invFun i := (fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(i 4).val, (i 4).isLt⟩, ⟨(i 3).val, (i 3).isLt⟩)
  left_inv x := Prod.ext
    (funext fun a => Fin.ext (by match a with | ⟨0, _⟩ => rfl | ⟨1, _⟩ => rfl | ⟨2, _⟩ => rfl | ⟨3, _⟩ => rfl))
    (Fin.ext rfl)
  right_inv i := funext fun a => Fin.ext (by
    match a with | ⟨0, _⟩ => rfl | ⟨1, _⟩ => rfl | ⟨2, _⟩ => rfl | ⟨3, _⟩ => rfl | ⟨4, _⟩ => rfl)

/-- Summing over the cells the sum over a cell's two coordinates is summing over every entry. -/
theorem sum_cells {M : Type*} [AddCommMonoid M] (f : S16x1024x10x2x50.Idx → M) :
    ∑ j : S16x1024x10x50.Idx, ∑ k : Fin 2, f (idx_main_v5 j k) = ∑ i, f i := by
  rw [← Equiv.sum_comp cellEquiv f, Fintype.sum_prod_type]
  rfl

/-- There are 8 192 000 cells. -/
theorem card_cells : (Fintype.card S16x1024x10x50.Idx : ℝ) = 8192000 := by
  rw [Shape.card_idx]
  norm_num [Shape.numel, Fin.prod_univ_succ]

/-- The reference's result is `nllMean` of the grand total. -/
theorem ref_value (x0 x1 x2 : (⟨S16x1024x10x2x50, .f32⟩ : BufTy).Contents (Elt Ideal)) :
    val_main_v11 (F := Ideal) x0 x1 x2 = fun _ => nllMean (∑ i, nllTerm (x0 i) (x1 i) (x2 i)) := by
  funext i
  rw [val_main_v11_apply, val_main_v10_apply]
  simp only [val_main_v9_apply, val_main_v7_apply, val_main_v6_apply, val_main_v8_apply, val_main_v5_apply,
    val_main_cst_apply, val_main_cst_0_apply, val_main_cst_1_apply, val_main_cst_2_apply, val_main_cst_3_apply,
    Ideal.hostDivf_def, Ideal.addf_def, Ideal.mulf_def, Ideal.ofBits_def, Ideal.ofBits_zero_f32,
    ofBits_half, ofBits_count, ofBits_log2pi]
  rw [mean_law (1 / 2) (7708615 / 4194304) 8192000 (by norm_num) (by norm_num) card_cells, sum_cells]
  rfl

end Cert.ReferenceIdeal.NllRef

end
-- ==== Proof.lean ====
/-
  A Gaussian negative log-likelihood, averaged: the kernel and its reference are equal over the extended reals.

  Per entry `e` of the three [16, 1024, 10, 2, 50] inputs (mean m, variance v, target t) both programs form the same
  term  τ(e) = (t − m)² / v + log v,  with the same division and logarithm.

    reference:  ( Σ over the 8 192 000 cells (batch, position, article, sample) of  ½ · (τ at d = 0  +  τ at d = 1)
                  + log 2π ) / 8 192 000
    kernel:     ( ½ · Σ over ALL 16 384 000 entries of τ ) / 8 192 000  +  log 2π,
                the total taken as 2 × 1024 partial sums, each over 4 grid steps × 2000 rows of the inputs flattened
                to [16000, 1024].

  They agree because (i) a finite sum of extended reals may be regrouped and reordered freely; (ii) the real factors ½
  and 1/8 192 000 are non-negative, so they distribute over extended-real sums whatever the terms are — no term need be
  finite; (iii) 8 192 000 · log 2π / 8 192 000 = log 2π among reals. The precondition (finite inputs) is never opened:
  a zero or negative variance makes some τ infinite, and the two sides are still the same extended real.

  Modules: SumLaws (the laws (i)–(iii) and the specification `nllMean`), Consts (the three float words),
  BodyValue / PayloadValue / Accum / Partials / KernelValue (the kernel: one step's value, the accumulator across the
  grid, the array of partial sums, the lines after the region), RefValue (the reference). The three frames are the
  generated ones; the idealization rewrote nothing, so `preserves` is `True`.
-/
import proofs.«159247_j90117003804744_2_alg».proof.Defs
import proofs.«159247_j90117003804744_2_alg».proof.Proof.Gen.Kernel
import proofs.«159247_j90117003804744_2_alg».proof.Proof.Gen.Kernel.Skeleton
import proofs.«159247_j90117003804744_2_alg».proof.Proof.Gen.Kernel.Launch
import proofs.«159247_j90117003804744_2_alg».proof.Proof.Gen.Kernel.Points
import proofs.«159247_j90117003804744_2_alg».proof.Proof.Gen.Kernel.Frame
import proofs.«159247_j90117003804744_2_alg».proof.Proof.Gen.KernelIdeal
import proofs.«159247_j90117003804744_2_alg».proof.Proof.Gen.KernelIdeal.Skeleton
import proofs.«159247_j90117003804744_2_alg».proof.Proof.Gen.KernelIdeal.Launch
import proofs.«159247_j90117003804744_2_alg».proof.Proof.Gen.KernelIdeal.Points
import proofs.«159247_j90117003804744_2_alg».proof.Proof.Gen.KernelIdeal.Frame
import proofs.«159247_j90117003804744_2_alg».proof.Proof.Gen.ReferenceIdeal
import proofs.«159247_j90117003804744_2_alg».proof.Proof.Gen.ReferenceIdeal.Run
import proofs.«159247_j90117003804744_2_alg».proof.Proof.Gen.ReferenceIdeal.Read
import proofs.«159247_j90117003804744_2_alg».proof.Proof.Gen.Pre_finite_inputs
import proofs.«159247_j90117003804744_2_alg».proof.Proof.KernelValue
import proofs.«159247_j90117003804744_2_alg».proof.Proof.RefValue
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs, from memories agreeing on the arguments, end at `nllMean` of the grand total of the
    entries' terms: the kernel by `NllValue.run`, the reference by its run read stage by stage (`ref_value`). -/
theorem algebraic : Cert.algebraic_KernelIdeal_ReferenceIdeal := by
  intro m ρ m' ρ' _ hagree
  refine ⟨_, Cert.KernelIdeal.NllValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.NllRef.ref_value, (hagree c).1,
    (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
